-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x768 : Shape := ⟨2, ![131072, 768]⟩
abbrev S_ : Shape := ⟨0, ![]⟩

class Facts : Prop where
  bcast_S_S131072x768 : S_.BroadcastsInDim S131072x768 (![] : Fin 0 → Fin S131072x768.rank)
  reducesTo_S131072x768_S_d0_1 : S131072x768.ReducesTo [0, 1] S_
  h_S_ : 0 < S_.numel

variable [Facts]

def fn {F : FTy → Type} [FloatOps F] (main_arg0 : FVec F S131072x768 .f32) (main_arg1 : FVec F S131072x768 .f32) : IVec S_ 1 :=
  let main_v0 : FVec F S131072x768 .f32 := Host.absf main_arg0
  let main_cst : FVec F S_ .f32 := constant S_ .f32 0x7F800000#32
  let main_v1 : FVec F S131072x768 .f32 := broadcastInDim S131072x768 ![] bcast_S_S131072x768 main_cst
  let main_v2 : IVec S131072x768 1 := cmpf .olt main_v0 main_v1
  let main_c : IVec S_ 1 := constantI S_ 1 1#1
  let main_v3 : IVec S_ 1 := (fun x v => Host.reduce IntOp.andi x v reducesTo_S131072x768_S_d0_1 h_S_) main_v2 main_c
  let main_v4 : FVec F S131072x768 .f32 := Host.absf main_arg1
  let main_cst_0 : FVec F S_ .f32 := constant S_ .f32 0x7F800000#32
  let main_v5 : FVec F S131072x768 .f32 := broadcastInDim S131072x768 ![] bcast_S_S131072x768 main_cst_0
  let main_v6 : IVec S131072x768 1 := cmpf .olt main_v4 main_v5
  let main_c_1 : IVec S_ 1 := constantI S_ 1 1#1
  let main_v7 : IVec S_ 1 := (fun x v => Host.reduce IntOp.andi x v reducesTo_S131072x768_S_d0_1 h_S_) main_v6 main_c_1
  let main_v8 : IVec S_ 1 := andi main_v3 main_v7
  main_v8
-- ==== Kernel.lean ====
abbrev S131072x768 : Shape := ⟨2, ![131072, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S131072x768, .f32⟩
  | .hbm, ⟨1, _⟩ => ⟨S131072x768, .f32⟩
  | .hbm, ⟨2, _⟩ => ⟨S131072x768, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | .local _ .vmem, ⟨3, _⟩ => ⟨S2048x768, .f32⟩
  | .local _ .vmem, ⟨4, _⟩ => ⟨S2048x768, .f32⟩
  | .local _ .vmem, ⟨5, _⟩ => ⟨S2048x768, .f32⟩
  | _, _ => ⟨S131072x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x768_S2048x768_0_0 : ∀ a, (![0, 0] : Fin 2 → Nat) a + S2048x768.size a ≤ S2048x768.size a
  h_S2048x768 : 0 < S2048x768.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S131072x768.size a
  hwx0_0 : ∀ i : grid0.Coords, EltTy.bits .f32 = 32 ∨ (Rect.block (s := S131072x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S131072x768.size a
  hwx0_1 : ∀ i : grid0.Coords, EltTy.bits .f32 = 32 ∨ (Rect.block (s := S131072x768) S2048x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x768.size a ≤ S131072x768.size a
  hwx0_2 : ∀ i : grid0.Coords, EltTy.bits .f32 = 32 ∨ (Rect.block (s := S131072x768) S2048x768.size (cc0_transform_2 i) (hinb0_2 i)).WholeWords (EltTy.packing .f32)

variable [Facts₀]

abbrev win0_0 : Pipeline.Window sig grid0 :=
  Pipeline.Window.ofSpec (Memref.whole main_arg0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S131072x768 : Shape := ⟨2, ![131072, 768]⟩
abbrev S_ : Shape := ⟨0, ![]⟩
abbrev S131072 : Shape := ⟨1, ![131072]⟩
abbrev S1x131072 : Shape := ⟨2, ![1, 131072]⟩
abbrev S2x131072 : Shape := ⟨2, ![2, 131072]⟩
abbrev S131072x1 : Shape := ⟨2, ![131072, 1]⟩

abbrev nBuf : Space → Nat
  | .hbm => 41
  | .vmem => 0
  | .smem => 0
  | _ => 0

abbrev bufTy : (tb : Table) → Fin (tcTables nBuf tb) → BufTy
  | .hbm, ⟨0, _⟩ => ⟨S131072x768, .f32⟩
  | .hbm, ⟨1, _⟩ => ⟨S131072x768, .f32⟩
  | .hbm, ⟨2, _⟩ => ⟨S131072x768, .f32⟩
  | .hbm, ⟨3, _⟩ => ⟨S_, .f32⟩
  | .hbm, ⟨4, _⟩ => ⟨S131072x768, .f32⟩
  | .hbm, ⟨5, _⟩ => ⟨S131072x768, .f32⟩
  | .hbm, ⟨6, _⟩ => ⟨S131072x768, .f32⟩
  | .hbm, ⟨7, _⟩ => ⟨S_, .f32⟩
  | .hbm, ⟨8, _⟩ => ⟨S131072, .f32⟩
  | .hbm, ⟨9, _⟩ => ⟨S_, .f32⟩
  | .hbm, ⟨10, _⟩ => ⟨S131072, .f32⟩
  | .hbm, ⟨11, _⟩ => ⟨S131072, .f32⟩
  | .hbm, ⟨12, _⟩ => ⟨S1x131072, .f32⟩
  | .hbm, ⟨13, _⟩ => ⟨S1x131072, .f32⟩
  | .hbm, ⟨14, _⟩ => ⟨S2x131072, .f32⟩
  | .hbm, ⟨15, _⟩ => ⟨S_, .f32⟩
  | .hbm, ⟨16, _⟩ => ⟨S131072, .f32⟩
  | .hbm, ⟨17, _⟩ => ⟨S_, .f32⟩
  | .hbm, ⟨18, _⟩ => ⟨S131072, .f32⟩
  | .hbm, ⟨19, _⟩ => ⟨S131072, .f32⟩
  | .hbm, ⟨20, _⟩ => ⟨S1x131072, .f32⟩
  | .hbm, ⟨21, _⟩ => ⟨S2x131072, .f32⟩
  | .hbm, ⟨22, _⟩ => ⟨S2x131072, .f32⟩
  | .hbm, ⟨23, _⟩ => ⟨S2x131072, .f32⟩
  | .hbm, ⟨24, _⟩ => ⟨S_, .f32⟩
  | .hbm, ⟨25, _⟩ => ⟨S131072, .f32⟩
  | .hbm, ⟨26, _⟩ => ⟨S1x131072, .f32⟩
  | .hbm, ⟨27, _⟩ => ⟨S2x131072, .f32⟩
  | .hbm, ⟨28, _⟩ => ⟨S2x131072, .f32⟩
  | .hbm, ⟨29, _⟩ => ⟨S1x131072, .f32⟩
  | .hbm, ⟨30, _⟩ => ⟨S131072, .f32⟩
  | .hbm, ⟨31, _⟩ => ⟨S131072x1, .f32⟩
  | .hbm, ⟨32, _⟩ => ⟨S131072x768, .f32⟩
  | .hbm, ⟨33, _⟩ => ⟨S131072x768, .f32⟩
  | .hbm, ⟨34, _⟩ => ⟨S_, .f32⟩
  | .hbm, ⟨35, _⟩ => ⟨S131072, .f32⟩
  | .hbm, ⟨36, _⟩ => ⟨S131072, .f32⟩
  | .hbm, ⟨37, _⟩ => ⟨S131072x1, .f32⟩
  | .hbm, ⟨38, _⟩ => ⟨S131072x768, .f32⟩
  | .hbm, ⟨39, _⟩ => ⟨S131072x768, .f32⟩
  | .hbm, ⟨40, _⟩ => ⟨S131072x768, .f32⟩
  | _, _ => ⟨S131072x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  bcast_S_S131072x768 : S_.BroadcastsInDim S131072x768 (![] : Fin 0 → Fin S131072x768.rank)
  reducesTo_S131072x768_S131072_d1 : S131072x768.ReducesTo [1] S131072
  h_S_ : 0 < S_.numel
  bcast_S_S131072 : S_.BroadcastsInDim S131072 (![] : Fin 0 → Fin S131072.rank)
  bcast_S131072_S1x131072_1 : S131072.BroadcastsInDim S1x131072 (![1] : Fin 1 → Fin S1x131072.rank)
  concatenates_S1x131072_S1x131072_S2x131072_d0 : Shape.Concatenates [S1x131072, S1x131072] S2x131072 0
  reducesTo_S2x131072_S131072_d0 : S2x131072.ReducesTo [0] S131072
  bcast_S1x131072_S2x131072_0_1 : S1x131072.BroadcastsInDim S2x131072 (![0, 1] : Fin 2 → Fin S2x131072.rank)
  slices_S2x131072_S1x131072_0_0 : S2x131072.Slices ![0, 0] S1x131072
  shapeCasts_S1x131072_S131072 : S1x131072.ShapeCasts S131072
  bcast_S131072_S131072x1_0 : S131072.BroadcastsInDim S131072x1 (![0] : Fin 1 → Fin S131072x1.rank)
  bcast_S131072x1_S131072x768_0_1 : S131072x1.BroadcastsInDim S131072x768 (![0, 1] : Fin 2 → Fin S131072x768.rank)

variable [Facts₀]

class Facts : Prop extends Facts₀ where

variable [Facts]
-- ==== Proof.Arith.lean ====
/-
  Arithmetic on the extended reals that the certificate rests on, with no program in sight.

  The reference weighs its two arguments by a two-way softmax over a pair of EQUAL log-weights
  `r = -½ · Σₖ (½ (aₖ - bₖ))²`. When `r` is a real number the pair is shifted by its own maximum to
  `(0, 0)`, exponentiated to `(1, 1)`, and normalised by `1 + 1`: the weight is exactly `1/2`, and the
  blend `w · a + (1 - w) · b` is `½ · (a + b)`, the kernel's expression, by distributivity over the reals.
  Every step uses that the numbers involved are finite: `r - r` is `0` only for a real `r` (on the extended
  reals `(-∞) - (-∞)` is `-∞`), so this module first says what "a real number" is for an extended real and
  that sums, differences, products and finite sums of such stay so.
-/
import Idealize.ShloMosaic.PureOps.Ideal
import Idealize.ShloMosaic.PureOps.Ideal.Laws

noncomputable section

namespace Cert.Blend

open Idealize.ShloMosaic

/-! ## Extended reals that are real numbers -/

/-- An extended real that is a real number: neither infinity. -/
def IsReal (x : EReal) : Prop := ∃ r : ℝ, x = (r : EReal)

namespace IsReal

variable {x y : EReal}

theorem add (hx : IsReal x) (hy : IsReal y) : IsReal (x + y) := by
  obtain ⟨a, rfl⟩ := hx; obtain ⟨b, rfl⟩ := hy; exact ⟨a + b, (EReal.coe_add a b).symm⟩

theorem sub (hx : IsReal x) (hy : IsReal y) : IsReal (x - y) := by
  obtain ⟨a, rfl⟩ := hx; obtain ⟨b, rfl⟩ := hy; exact ⟨a - b, (EReal.coe_sub a b).symm⟩

theorem mul (hx : IsReal x) (hy : IsReal y) : IsReal (x * y) := by
  obtain ⟨a, rfl⟩ := hx; obtain ⟨b, rfl⟩ := hy; exact ⟨a * b, (EReal.coe_mul a b).symm⟩

/-- A finite sum of real numbers is a real number. -/
theorem sum {ι : Type} (s : Finset ι) (f : ι → EReal) (h : ∀ k ∈ s, IsReal (f k)) : IsReal (∑ k ∈ s, f k) := by
  classical
  induction s using Finset.induction_on with
  | empty => exact ⟨0, by simp⟩
  | insert a s ha ih =>
    rw [Finset.sum_insert ha]
    exact (h a (Finset.mem_insert_self a s)).add (ih fun k hk => h k (Finset.mem_insert_of_mem hk))

end IsReal

/-- An extended real whose absolute value `max x (-x)` is below `+∞` is a real number. -/
theorem isReal_of_abs_lt_top {x : EReal} (h : max x (-x) < ⊤) : IsReal x := by
  induction x using EReal.rec with
  | bot => simp at h
  | coe r => exact ⟨r, rfl⟩
  | top => simp at h

/-! ## The literal words the two programs spell, as numbers -/

/-- `0.5` -/
theorem ofBits_half : Ideal.ofBits .f32 0x3F000000#32 = ((1 / 2 : ℝ) : EReal) := by
  simp [Ideal.ofBits, Ideal.ieee, -EReal.coe_mul]; norm_num

/-- `-0.5` -/
theorem ofBits_neg_half : Ideal.ofBits .f32 0xBF000000#32 = ((-(1 / 2) : ℝ) : EReal) := by
  simp [Ideal.ofBits, Ideal.ieee, -EReal.coe_mul]; norm_num

/-- `1.0` -/
theorem ofBits_one : Ideal.ofBits .f32 0x3F800000#32 = ((1 : ℝ) : EReal) := by
  simp [Ideal.ofBits, Ideal.ieee, -EReal.coe_mul]; norm_num

/-- `-∞`, the value a running maximum starts from. -/
theorem ofBits_neg_inf : Ideal.ofBits .f32 0xFF800000#32 = ⊥ := by
  simp [Ideal.ofBits, Ideal.ieee]

/-- `+∞`, the bound "finite" compares an absolute value against. -/
theorem ofBits_pos_inf : Ideal.ofBits .f32 0x7F800000#32 = ⊤ := by
  simp [Ideal.ofBits, Ideal.ieee]

/-! ## A fold over two entries -/

/-- A fold of a commutative, associative operation over the two indices of `Fin 2`, written out. -/
theorem fold_pair {α : Type} (op : α → α → α) [Std.Commutative op] [Std.Associative op] (b : α) (f : Fin 2 → α) :
    (Finset.univ : Finset (Fin 2)).fold op b f = op (f 0) (op (f 1) b) := by
  have e : (Finset.univ : Finset (Fin 2)) = insert 0 {1} := by decide
  rw [e, Finset.fold_insert (by decide), Finset.fold_singleton]

/-- The larger of two copies of `r`, the running maximum started at `-∞` and compared with `-∞` once more, is `r`. -/
theorem max_pair (r : EReal) : max ⊥ (max r (max r ⊥)) = r := by simp

/-! ## The even split -/

/-- Two equal finite log-weights share a two-way softmax evenly: each shifted weight is `ρ - ρ = 0`, its
    exponential `1`, the normaliser `0 + (1 + 1) = 2`, the quotient `1/2`. -/
theorem softmax_pair (ρ : ℝ) :
    Ideal.div (Ideal.exp ((ρ : EReal) - ρ)) (0 + ∑ _k : Fin 2, Ideal.exp ((ρ : EReal) - ρ)) = ((1 / 2 : ℝ) : EReal) := by
  have h0 : (ρ : EReal) - ρ = ((0 : ℝ) : EReal) := by rw [← EReal.coe_sub, sub_self]
  have h2 : (0 : EReal) + ∑ _k : Fin 2, (((1 : ℝ) : EReal)) = ((2 : ℝ) : EReal) := by
    rw [Fin.sum_univ_two, zero_add, ← EReal.coe_add]; norm_num
  rw [h0, Ideal.exp_coe, Real.exp_zero, h2, Ideal.div_coe (by norm_num : (2 : ℝ) ≠ 0), ← EReal.coe_mul, one_mul]

/-- With the weight `1/2` the reference's blend `w · a + (1 - w) · b` of two real numbers is the kernel's `½ · (a + b)`:
    distributivity, over the reals. -/
theorem blend_half (a b : ℝ) :
    ((1 / 2 : ℝ) : EReal) * a + (((1 : ℝ) : EReal) - ((1 / 2 : ℝ) : EReal)) * b = ((1 / 2 : ℝ) : EReal) * ((a : EReal) + b) := by
  rw [← EReal.coe_sub, ← EReal.coe_mul, ← EReal.coe_mul, ← EReal.coe_add, ← EReal.coe_add, ← EReal.coe_mul]
  congr 1; ring

end Cert.Blend

end
-- ==== Proof.Finite.lean ====
/-
  What the precondition says of the two arguments: every entry of each is a real number.

  The printed predicate is `all (|a| < +∞) ∧ all (|b| < +∞)`: each `all` is a reduction by `and` over both axes
  from `true`, so its being `true` gives the comparison at every index; the comparison is the order of the
  extended reals against `+∞`; and an extended real whose absolute value is below `+∞` is neither infinity.
-/
import proofs.«165677_j51127290692324_2_alg».proof.Proof.Gen.Pre_finite_inputs
import proofs.«165677_j51127290692324_2_alg».proof.Proof.Arith
import Idealize.ShloMosaic.Lib.ReduceAll
import Idealize.ShloMosaic.Lib.ValueIdx
import Idealize.ShloMosaic.Lib.Pipeline.Value

noncomputable section

namespace Cert.Blend

open Idealize.ShloMosaic Cert.Pre_finite_inputs Cert.Pre_finite_inputs.Gen

/-- The shape with no axes has one index. -/
instance : Subsingleton S_.Idx := ⟨fun a b => funext fun d => d.elim0⟩

/-- One entry's comparison `|x| < +∞` being `true` makes `x` a real number. -/
theorem isReal_of_cmp {x : EReal}
    (h : FloatOps.cmpf (F := Ideal) (φ := .f32) .olt (FloatOps.hostAbsf (F := Ideal) (φ := .f32) x) (Ideal.ofBits .f32 0x7F800000#32) = 1#1) : IsReal x := by
  rw [ofBits_pos_inf] at h
  apply isReal_of_abs_lt_top
  by_contra hn
  have : FloatOps.cmpf (F := Ideal) (φ := .f32) .olt (FloatOps.hostAbsf (F := Ideal) (φ := .f32) x) ⊤ = 0#1 := by
    show BitVec.ofBool (decide (max x (-x) < ⊤)) = 0#1
    rw [decide_eq_false hn]; rfl
  rw [this] at h
  exact absurd h (by decide)

/-- Under the precondition every entry of both arguments is a real number. -/
theorem entries_real (x0 x1 : FVec Ideal S131072x768 .f32)
    (h : Cert.Pre_finite_inputs.fn (F := Ideal) x0 x1 = fun _ => 1#1) (i : S131072x768.Idx) :
    IsReal (x0 i) ∧ IsReal (x1 i) := by
  have h1 := congrFun h ValueIdx.ix0
  dsimp only [Cert.Pre_finite_inputs.fn] at h1
  obtain ⟨ha, hb⟩ := IntOp.andi_eq_one.1 h1
  have e0 := Host.reduce_andi_all _ _ _ _ _ ha i
  have e1 := Host.reduce_andi_all _ _ _ _ _ hb i
  rw [ValueIdx.cmpf_apply, broadcastInDim_apply _ bcast_S_S131072x768 _ i ValueIdx.ix0 (fun a => a.elim0)] at e0 e1
  exact ⟨isReal_of_cmp e0, isReal_of_cmp e1⟩

end Cert.Blend

end
-- ==== Proof.RefValue.lean ====
/-
  The reference, read stage by stage at an index, under the hypothesis that every entry of both arguments is a real number.

  Row `n` of the reference has the log-weight `L n = -½ · (0 + Σₖ (½ (aₙₖ - bₙₖ))²)`, a real number when the entries
  are. The reference stacks `L` on itself as the two rows of a [2, rows] array, so both stacked entries over row `n`
  are `L n`; their maximum from `-∞` is `L n`; each shifted entry is `L n - L n`, each exponential `exp (L n - L n)`,
  the normaliser `0 + Σ_{k<2} exp (L n - L n)`, and the first row of the quotient — the weight of row `n` — is `1/2`
  because `L n` is real. The result at `(n, k)` is then `½ · aₙₖ + (1 - ½) · bₙₖ`, which for real entries is the
  kernel's `½ · (aₙₖ + bₙₖ)`.
-/
import proofs.«165677_j51127290692324_2_alg».proof.Proof.Gen.ReferenceIdeal.Read
import proofs.«165677_j51127290692324_2_alg».proof.Proof.Arith
import Idealize.ShloMosaic.Lib.ValueIdx
import Idealize.ShloMosaic.Lib.Pipeline.Value
import Idealize.ShloMosaic.PureOps.Ideal.Laws
import Idealize.ShloMosaic.PureOps.Reduce

noncomputable section

namespace Cert.Blend

open Idealize.ShloMosaic Idealize.ShloMosaic.ValueIdx
open Cert.ReferenceIdeal Cert.ReferenceIdeal.Gen Cert.ReferenceIdeal.Read

variable (x0 x1 : FVec Ideal S131072x768 .f32)

/-- The row an index of the stacked [2, rows] array lies over. -/
abbrev rowOfStacked (j : S2x131072.Idx) : S131072.Idx := ix1 (⟨(j 1).val, idx2_lt1 j⟩ : Fin 131072)

/-- The row of an index of the [rows, 768] arrays. -/
abbrev rowOfEntry (i : S131072x768.Idx) : S131072.Idx := ix1 (⟨(i 0).val, idx2_lt0 i⟩ : Fin 131072)

/-! ## The log-weight of a row is a real number -/

theorem logWeight_real (hx : ∀ i, IsReal (x0 i) ∧ IsReal (x1 i)) (n : S131072.Idx) :
    IsReal (val_main_v6 (F := Ideal) x0 x1 n) := by
  rw [val_main_v6_apply, val_main_v5_apply, val_main_cst_1_apply, val_main_v4_apply, val_main_cst_0_apply]
  simp only [Ideal.mulf_def, Ideal.ofBits_def]
  refine IsReal.mul ⟨_, ofBits_neg_half⟩
    (IsReal.add ⟨0, by rw [Ideal.ofBits_zero_f32, EReal.coe_zero]⟩ (IsReal.sum _ _ fun k _ => ?_))
  rw [val_main_v3_apply, val_main_v2_apply, val_main_v1_apply, val_main_cst_apply, val_main_v0_apply]
  simp only [Ideal.mulf_def, Ideal.subf_def, Ideal.ofBits_def]
  have hk := hx (idx_main_v4 n k)
  have hd : IsReal (Ideal.ofBits .f32 0x3F000000#32 * (x0 (idx_main_v4 n k) - x1 (idx_main_v4 n k))) :=
    IsReal.mul ⟨_, ofBits_half⟩ (hk.1.sub hk.2)
  exact hd.mul hd

/-! ## The stacked pair, its maximum, the shifted exponentials, the normaliser -/

/-- Both rows of the stacked array are the log-weights: the entry over row `n` is `L n`, in the first row (read from
    the first piece of the concatenation) and in the second (read from the second piece, one row down). -/
theorem stacked_apply (j : S2x131072.Idx) :
    val_main_v9 (F := Ideal) x0 x1 j = val_main_v6 (F := Ideal) x0 x1 (rowOfStacked j) := by
  unfold val_main_v9
  have hj0 : (j 0).val < 2 := idx2_lt0 j
  by_cases h : (j 0).val = 0
  · rw [concatenate_pair_apply_left (t := S2x131072) (s₁ := S1x131072) (s₂ := S1x131072) (0 : Fin 2) _ _ _ j rfl (ix2 (0 : Fin 1) (⟨(j 1).val, idx2_lt1 j⟩ : Fin 131072)) (fun b => by
        match b with
        | ⟨0, _⟩ => show (0 : Nat) = (j 0).val; omega
        | ⟨1, _⟩ => rfl)]
    rw [val_main_v7_apply]
    exact congrArg _ (funext fun a => Fin.ext (by match a with | ⟨0, _⟩ => rfl))
  · rw [concatenate_pair_apply_right (t := S2x131072) (s₁ := S1x131072) (s₂ := S1x131072) (0 : Fin 2) _ _ _ j rfl rfl (ix2 (0 : Fin 1) (⟨(j 1).val, idx2_lt1 j⟩ : Fin 131072)) (fun b hb => by
        match b with
        | ⟨0, _⟩ => exact absurd rfl hb
        | ⟨1, _⟩ => rfl) (by show 0 + 1 = (j 0).val; omega)]
    rw [val_main_v8_apply]
    exact congrArg _ (funext fun a => Fin.ext (by match a with | ⟨0, _⟩ => rfl))

/-- The maximum over the two stacked rows, from `-∞` and compared with `-∞` once more, is the log-weight itself. -/
theorem rowMax_apply (n : S131072.Idx) :
    val_main_v12 (F := Ideal) x0 x1 n = val_main_v6 (F := Ideal) x0 x1 n := by
  have hR : Shape.Reduces S2x131072 [(0 : Fin 2)] S131072 := by decide
  have e : ∀ k : Fin 2, rowOfStacked (hR.lift n k) = n := fun k =>
    funext fun a => Fin.ext (by match a with | ⟨0, _⟩ => rfl)
  rw [val_main_v12_apply, val_main_v11_apply, val_main_cst_3_apply]
  unfold val_main_v10
  rw [Host.reduce_eq_fold_single FloatOps.maximumf _ _ _ hR h_S_ n]
  refine (congrArg (FloatOps.maximumf (F := Ideal) (φ := .f32) (FloatOps.ofBits (F := Ideal) .f32 0xFF800000#32))
    (fold_pair (α := EReal) (FloatOps.maximumf (F := Ideal) (φ := .f32)) (val_main_cst_2 (F := Ideal) (Shape.Idx.first h_S_))
      (fun k : Fin 2 => val_main_v9 (F := Ideal) x0 x1 (hR.lift n k)))).trans ?_
  simp only [Function.comp_apply, stacked_apply, e, val_main_cst_2_apply, Ideal.maximumf_def, Ideal.ofBits_def, ofBits_neg_inf]
  exact max_pair _

/-- The maximum broadcast back over the stacked array: at an index over row `n`, `L n`. -/
theorem rowMaxStacked_apply (j : S2x131072.Idx) :
    val_main_v14 (F := Ideal) x0 x1 j = val_main_v6 (F := Ideal) x0 x1 (rowOfStacked j) := by
  rw [val_main_v14_apply, val_main_v13_apply, rowMax_apply]
  exact congrArg _ (funext fun a => Fin.ext (by match a with | ⟨0, _⟩ => rfl))

/-- Each stacked entry, shifted by the maximum and exponentiated: `exp (L n - L n)` over row `n`. -/
theorem expShifted_apply (j : S2x131072.Idx) :
    val_main_v16 (F := Ideal) x0 x1 j
      = Ideal.exp (val_main_v6 (F := Ideal) x0 x1 (rowOfStacked j) - val_main_v6 (F := Ideal) x0 x1 (rowOfStacked j)) := by
  rw [val_main_v16_apply, val_main_v15_apply, stacked_apply, rowMaxStacked_apply]
  simp only [Ideal.hostUnary_exp_def, Ideal.subf_def]

/-- The normaliser of row `n`: the two exponentials summed from zero. -/
theorem normaliser_apply (n : S131072.Idx) :
    val_main_v17 (F := Ideal) x0 x1 n
      = 0 + ∑ _k : Fin 2, Ideal.exp (val_main_v6 (F := Ideal) x0 x1 n - val_main_v6 (F := Ideal) x0 x1 n) := by
  rw [val_main_v17_apply, val_main_cst_4_apply]
  simp only [Ideal.ofBits_def, Ideal.ofBits_zero_f32]
  refine congrArg (_ + ·) (Finset.sum_congr rfl fun k _ => ?_)
  rw [expShifted_apply]
  have e : rowOfStacked (idx_main_v17 n k) = n := funext fun a => Fin.ext (by match a with | ⟨0, _⟩ => rfl)
  rw [e]

/-! ## The weight is one half -/

/-- The weight of row `n` — the first row of the quotient, flattened — is `1/2` when the row's log-weight is real. -/
theorem weight_apply (hL : ∀ n, IsReal (val_main_v6 (F := Ideal) x0 x1 n)) (n : S131072.Idx) :
    val_main_v22 (F := Ideal) x0 x1 n = ((1 / 2 : ℝ) : EReal) := by
  have hn : (n 0).val < 131072 := (n 0).isLt
  have e1 : rowOfStacked (idx_main_v21 (idx_main_v22 n)) = n :=
    funext fun a => Fin.ext (by match a with | ⟨0, _⟩ => exact Nat.mod_eq_of_lt hn)
  have e2 : idx_main_v18 (idx_main_v19 (idx_main_v21 (idx_main_v22 n))) = n :=
    funext fun a => Fin.ext (by match a with | ⟨0, _⟩ => exact Nat.mod_eq_of_lt hn)
  rw [val_main_v22_apply, val_main_v21_apply, val_main_v20_apply, val_main_v19_apply, val_main_v18_apply,
    expShifted_apply, normaliser_apply, e1, e2]
  simp only [Ideal.hostDivf_def]
  obtain ⟨ρ, hρ⟩ := hL n
  rw [hρ]
  exact softmax_pair ρ

/-! ## The result -/

/-- The reference's result at an index, for real entries: the kernel's `½ · (a + b)`. -/
theorem reference_apply (hx : ∀ i, IsReal (x0 i) ∧ IsReal (x1 i)) (i : S131072x768.Idx) :
    val_main_v31 (F := Ideal) x0 x1 i
      = FloatOps.mulf (Scalar.ofBits (F := Ideal) .f32 0x3F000000#32) (FloatOps.addf (x0 i) (x1 i)) := by
  have hL := logWeight_real x0 x1 hx
  rw [val_main_v31_apply, val_main_v25_apply, val_main_v30_apply, val_main_v24_apply, val_main_v23_apply,
    val_main_v29_apply, val_main_v28_apply, val_main_v27_apply, val_main_v26_apply, val_main_cst_5_apply]
  simp only [weight_apply x0 x1 hL, Ideal.mulf_def, Ideal.addf_def, Ideal.subf_def, Ideal.ofBits_def, ofBits_one, ofBits_half]
  obtain ⟨a, ha⟩ := (hx i).1
  obtain ⟨b, hb⟩ := (hx i).2
  rw [ha, hb]
  exact blend_half a b

end Cert.Blend

end
-- ==== Proof.lean ====
/-
  The kernel averages its two arguments, `½ · (a + b)`, block by block over 64 blocks of 2048 rows; the reference
  blends them, `w · a + (1 - w) · b`, with a weight `w` that is a two-way softmax over a pair of equal log-weights
  per row. On the extended reals the two results are the same array when every entry of `a` and `b` is a real
  number — which is what the precondition says:

  * the kernel's result array is `i ↦ ½ · (a i + b i)` (the generated value leg's closed form, whatever the blocks);
  * a row's log-weight `-½ · Σₖ (½ (aₖ - bₖ))²` is then a real number `r`, so the softmax's shifted pair is
    `(r - r, r - r) = (0, 0)`, the exponentials `(1, 1)`, the normaliser `2`, and `w = 1/2` exactly (for an infinite
    `r` the difference `r - r` would not be `0`: this is where finiteness is used);
  * `½ · a + (1 - ½) · b = ½ · (a + b)` for real `a`, `b`, by distributivity.

  The modules: `Arith` (the arithmetic above, on the extended reals alone), `Finite` (the precondition read back as
  "every entry is real"), `RefValue` (the reference read stage by stage at an index), and this file, which sets the
  two programs' runs side by side. The idealization rewrote nothing in the kernel, so that conjunct is trivial; each
  frame is the program's run with the result forgotten.
-/
import proofs.«165677_j51127290692324_2_alg».proof.Defs
import proofs.«165677_j51127290692324_2_alg».proof.Proof.Gen.Kernel.Frame
import proofs.«165677_j51127290692324_2_alg».proof.Proof.Gen.KernelIdeal.Value
import proofs.«165677_j51127290692324_2_alg».proof.Proof.Gen.Pre_finite_inputs
import proofs.«165677_j51127290692324_2_alg».proof.Proof.Gen.ReferenceIdeal.Run
import proofs.«165677_j51127290692324_2_alg».proof.Proof.Gen.ReferenceIdeal.Read
import proofs.«165677_j51127290692324_2_alg».proof.Proof.Finite
import proofs.«165677_j51127290692324_2_alg».proof.Proof.RefValue
import Idealize.ShloMosaic.Adequacy
import Idealize.ShloMosaic.Init

noncomputable section

namespace Cert.Proof

open Idealize.ShloMosaic Idealize.SL.Sem

/-- The idealized kernel terminates without a fault and leaves its arguments as they were: its run, the result forgotten. -/
theorem frame_KernelIdeal : frame_KernelIdeal := fun m ρ _ =>
  (θ_run Cert.KernelIdeal.defs _ _).mono (fun _ h c => (h c).2) (Cert.KernelIdeal.Value.run (F := Ideal) m ρ)

/-- The same for the reference. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the two arguments, both of whose entries are all real, the kernel's result array
    `i ↦ ½ · (a i + b i)` is the reference's: the reference's last stage, read at `i`, is that number. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1, Cert.ReferenceIdeal.Read.val_main_v31_eq, (hagree c).1, (hagree c).2]
  funext i
  exact Cert.Blend.reference_apply _ _ (Cert.Blend.entries_real _ _ (hpre c)) i

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
